-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩

abbrev nBuf : Space → Nat
  | .hbm => 78
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S1600000x1, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S1x128, .f32⟩
  | .hbm, ⟨77, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x128, .f32⟩
  | .hbm, ⟨106, _⟩ => ⟨S1600000x1, .f32⟩
  | .hbm, ⟨107, _⟩ => ⟨S1600000x128, .f32⟩
  | .hbm, ⟨108, _⟩ => ⟨S1600000x128, .f32⟩
  | .hbm, ⟨109, _⟩ => ⟨S_, .f32⟩
  | .hbm, ⟨110, _⟩ => ⟨S100000x128, .f32⟩
  | .hbm, ⟨111, _⟩ => ⟨S1600000x1, .i32⟩
  | .hbm, ⟨112, _⟩ => ⟨S100000x128, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The kernel program's run, with its result named.

  The program is four pipelined regions among three stretches of host operations.  Its buffer contents at each
  boundary are a fold from the launch memory: a stretch applies its operations, a region leaves each of its arrays at
  what the pipeline's write-backs fold to and every other buffer as it was.  The last boundary's contents are `W7`.
  Here: every weakly fair execution terminates, and in the final memory the result buffer holds `W7` at the result's
  reference while the six arguments are as launched.  What `W7` holds there, as a function of the arguments, is read
  in the modules that import this one.
-/
import proofs.«120353_j4509715661437_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and each argument at its launch contents. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.RefLayers.lean ====
/-
  The reference's two layers, each read at one entry of its result.

  A layer's result at row `p`, column `q` is the aggregated features at `(p, q)`, plus the node's own features at
  `(p, q)` times the node's squared degree normalisation, plus the bias at `q`; the first layer then takes the maximum
  with zero.  The aggregation over the edges is one function of the layer's feature array (`aggOf`), and the
  normalisation column is the same array in both layers: both are computed from the edge list alone.
-/
import proofs.«120353_j4509715661437_1_alg».proof.Proof.Gen.ReferenceIdeal.Read
import Idealize.ShloMosaic.Lib.ValueIdx

noncomputable section

namespace Cert.ReferenceIdeal.Layers

open Cert.ReferenceIdeal Cert.ReferenceIdeal.Gen Cert.ReferenceIdeal.Read
open Idealize.ShloMosaic Idealize.ShloMosaic.ValueIdx

variable {F : FTy → Type} [FloatOps F]

/-- The aggregation over the edges of a feature array `h`: row `dst e` of the result receives, for every edge `e`,
    row `src e` of `h` scaled by the edge's coefficient. Only `h` differs between the two layers. -/
def aggOf (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1600000x1_S1600000x128_1_0_0_1 (val_main_v37 (F := F)) (val_main_v38 (F := F) e)
    (mulf (Host.gather gather_S100000x128_S1600000x1_S1600000x128_1_0_n_n_0_1_1128 h (val_main_v32 (F := F) e)) (val_main_v35 (F := F) e))

/-- The first layer aggregates the first product. -/
theorem agg1_eq (x0 : (⟨S100000x128, .f32⟩ : BufTy).Contents (Elt F)) (x1 : (⟨S2x1600000, .i32⟩ : BufTy).Contents (Elt F)) (x2 : (⟨S128x128, .f32⟩ : BufTy).Contents (Elt F)) :
    val_main_v39 (F := F) x0 x1 x2 = aggOf (val_main_v4 (F := F) x0 x2) x1 := rfl

/-- The second layer aggregates the second product, over the same edge vectors and the same coefficient. -/
theorem agg2_eq (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v84 (F := F) x0 x1 x2 x3 x4 = aggOf (val_main_v49 (F := F) x0 x1 x2 x3 x4) x1 := rfl

/-- The normalisation column of the second layer is that of the first. -/
theorem dinv2_eq (x1 : (⟨S2x1600000, .i32⟩ : BufTy).Contents (Elt F)) : val_main_v86 (F := F) x1 = val_main_v41 (F := F) x1 := rfl

/-- The first layer at an entry. -/
theorem layer1_apply (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (p : Fin 100000) (q : Fin 128) :
    val_main_v48 (F := F) x0 x1 x2 x3 (ix2 p q)
      = FloatOps.maximumf (FloatOps.addf (FloatOps.addf (val_main_v39 (F := F) x0 x1 x2 (ix2 p q))
          (FloatOps.mulf (val_main_v4 (F := F) x0 x2 (ix2 p q)) (val_main_v41 (F := F) x1 (ix2 p (0 : Fin 1))))) (x3 (ix1 q)))
        (FloatOps.ofBits .f32 0x00000000#32) := by
  rw [val_main_v48_apply, val_main_v47_apply, val_main_v44_apply, val_main_v43_apply, val_main_v42_apply, val_main_v46_apply,
    val_main_v45_apply, val_main_call0_v0_apply, val_main_call0_cst_apply]
  have e1 : idx_main_v42 (ix2 p q) = ix2 p (0 : Fin 1) := funext fun a => Fin.ext (by match a with | ⟨0, _⟩ => rfl | ⟨1, _⟩ => rfl)
  have e2 : idx_main_v45 (idx_main_v46 (ix2 p q)) = ix1 q := funext fun a => Fin.ext (by match a with | ⟨0, _⟩ => rfl)
  rw [e1, e2]

/-- The second layer at an entry. -/
theorem layer2_apply (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) (p : Fin 100000) (q : Fin 128) :
    val_main_v92 (F := F) x0 x1 x2 x3 x4 x5 (ix2 p q)
      = FloatOps.addf (FloatOps.addf (val_main_v84 (F := F) x0 x1 x2 x3 x4 (ix2 p q))
          (FloatOps.mulf (val_main_v49 (F := F) x0 x1 x2 x3 x4 (ix2 p q)) (val_main_v86 (F := F) x1 (ix2 p (0 : Fin 1))))) (x5 (ix1 q)) := by
  rw [val_main_v92_apply, val_main_v89_apply, val_main_v88_apply, val_main_v87_apply, val_main_v91_apply, val_main_v90_apply]
  have e1 : idx_main_v87 (ix2 p q) = ix2 p (0 : Fin 1) := funext fun a => Fin.ext (by match a with | ⟨0, _⟩ => rfl | ⟨1, _⟩ => rfl)
  have e2 : idx_main_v90 (idx_main_v91 (ix2 p q)) = ix1 q := funext fun a => Fin.ext (by match a with | ⟨0, _⟩ => rfl)
  rw [e1, e2]

/-- A product of the features with a weight matrix at an entry: the sum over the contracted axis. -/
theorem prod1_apply (x0 : (⟨S100000x128, .f32⟩ : BufTy).Contents (Elt Ideal)) (x2 : (⟨S128x128, .f32⟩ : BufTy).Contents (Elt Ideal))
    (p : Fin 100000) (q : Fin 128) :
    val_main_v4 (F := Ideal) x0 x2 (ix2 p q) = ∑ k : Fin 128, x0 (ix2 p k) * x2 (ix2 k q) := by
  rw [val_main_v4_apply]
  refine Finset.sum_congr rfl fun k _ => ?_
  have el : lidx_main_v4 (ix2 p q) k = ix2 p k := funext fun a => Fin.ext (by match a with | ⟨0, _⟩ => rfl | ⟨1, _⟩ => rfl)
  have er : ridx_main_v4 (ix2 p q) k = ix2 k q := funext fun a => Fin.ext (by match a with | ⟨0, _⟩ => rfl | ⟨1, _⟩ => rfl)
  rw [el, er]

/-- The second layer's product at an entry: the first layer's result against the second weight matrix. -/
theorem prod2_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (p : Fin 100000) (q : Fin 128) :
    val_main_v49 (F := Ideal) x0 x1 x2 x3 x4 (ix2 p q) = ∑ k : Fin 128, val_main_v48 (F := Ideal) x0 x1 x2 x3 (ix2 p k) * x4 (ix2 k q) := by
  rw [val_main_v49_apply]
  refine Finset.sum_congr rfl fun k _ => ?_
  have el : lidx_main_v49 (ix2 p q) k = ix2 p k := funext fun a => Fin.ext (by match a with | ⟨0, _⟩ => rfl | ⟨1, _⟩ => rfl)
  have er : ridx_main_v49 (ix2 p q) k = ix2 k q := funext fun a => Fin.ext (by match a with | ⟨0, _⟩ => rfl | ⟨1, _⟩ => rfl)
  rw [el, er]

end Cert.ReferenceIdeal.Layers

end
-- ==== Proof.Layout.lean ====
/-
  Two ways of writing a vector as a one-column array, and why they are the same array.

  A length-`a` vector reshaped to `[a, 1]` and the same vector broadcast along a new trailing unit axis both hold, at
  `(i, 0)`, the vector's entry `i`.  One program of this certificate spells the column with a reshape, the other with
  a broadcast; the equation below is what joins the two spellings.
-/
import Idealize.ShloMosaic.Lib.Pipeline.Value
import Idealize.ShloMosaic.Lib.ValueIdx
import Idealize.ShloMosaic.Lib.ValueLayout

noncomputable section

namespace Cert.Hand.Layout

open Idealize.ShloMosaic Idealize.ShloMosaic.ValueIdx

variable {α : Type}

/-- An `[a]` array cast to `[a, 1]` reads, at `(i, u)`, the operand at `i`: the row-major position of `(i, u)` in
    `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast to `[a, 1]` along its own axis reads, at `(i, u)`, the operand at `i` (for `a = 1` the
    operand's axis is a unit axis and is read at `0`, which is `i`). -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ ![0] h x (ix2 i u) = x (ix1 i) :=
  broadcastInDim_apply _ h x _ _ (fun d => by
    match d with
    | ⟨0, _⟩ =>
      show i.val = if a = 1 then 0 else i.val
      split_ifs with h1
      · have := i.isLt; omega
      · rfl)

/-- The reshape to a column and the broadcast to a column are one array. -/
theorem shapeCast_col_eq_broadcast {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨p, q, rfl⟩ : ∃ (p : Fin a) (q : Fin 1), j = ix2 p q := ⟨j 0, j 1, eq_ix2 j⟩
  rw [shapeCast_a_a1_apply, broadcastInDim_a_a1_apply]

end Cert.Hand.Layout

end
-- ==== Proof.Boundary.lean ====
/-
  The kernel program's buffers at each boundary, read back to the arguments.

  The index vectors (sources and destinations of the edges), the degree normalisation and the per-edge coefficient are
  computed once, by the first stretch of host operations, and only read afterwards: no region and no later stretch
  writes them, so at every later boundary they are what the first stretch left.  The aggregation of a feature array
  over the edges (gather the source rows, scale by the coefficient, scatter-add into the destination rows) is the same
  function of the features in both layers.
-/
import proofs.«120353_j4509715661437_1_alg».proof.Proof.Gen.KernelIdeal.Frame
import proofs.«120353_j4509715661437_1_alg».proof.Proof.RefLayers
import proofs.«120353_j4509715661437_1_alg».proof.Proof.Layout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes keeps its contents over the stretch. -/
local macro "host_keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## After the first stretch -/

/-- The edges' sources. -/
theorem W1_src (c : Dev nD) : W1 m ρ c (Proc.devRef .tc main_v1) = Cert.ReferenceIdeal.Read.val_main_v1 (F := F) (m ((c : Thread nD τ).loc main_arg1)) := by
  show StableHlo.after hostOps0 (W0 m ρ c) (Proc.devRef .tc main_v1) = _
  after_results_simp
  rfl

/-- The edges' destinations. -/
theorem W1_dst (c : Dev nD) : W1 m ρ c (Proc.devRef .tc main_v3) = Cert.ReferenceIdeal.Read.val_main_v3 (F := F) (m ((c : Thread nD τ).loc main_arg1)) := by
  show StableHlo.after hostOps0 (W0 m ρ c) (Proc.devRef .tc main_v3) = _
  after_results_simp
  rfl

/-- The squared degree normalisation as a column: the program reshapes the vector where the reference broadcasts it. -/
theorem W1_dinv2 (c : Dev nD) : W1 m ρ c (Proc.devRef .tc main_v12) = Cert.ReferenceIdeal.Read.val_main_v41 (F := F) (m ((c : Thread nD τ).loc main_arg1)) := by
  show StableHlo.after hostOps0 (W0 m ρ c) (Proc.devRef .tc main_v12) = _
  after_results_simp
  exact (Cert.Hand.Layout.shapeCast_col_eq_broadcast _ _ Cert.ReferenceIdeal.Gen.bcast_S100000_S100000x1_0).trans rfl

/-- The per-edge coefficient as a column: again a reshape against a broadcast. -/
theorem W1_coef (c : Dev nD) : W1 m ρ c (Proc.devRef .tc main_v28) = Cert.ReferenceIdeal.Read.val_main_v34 (F := F) (m ((c : Thread nD τ).loc main_arg1)) := by
  show StableHlo.after hostOps0 (W0 m ρ c) (Proc.devRef .tc main_v28) = _
  after_results_simp
  exact (Cert.Hand.Layout.shapeCast_col_eq_broadcast _ _ Cert.ReferenceIdeal.Gen.bcast_S1600000_S1600000x1_0).trans rfl

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0

/-! ## What the later boundaries keep

A region changes only its own arrays and a stretch only its operations' results, so the edge vectors, the coefficient,
the normalisation column and the arguments are carried unchanged from the first stretch to wherever they are read. -/

theorem W2_src (c : Dev nD) : W2 m ρ c (Proc.devRef .tc main_v1) = Cert.ReferenceIdeal.Read.val_main_v1 (F := F) (m ((c : Thread nD τ).loc main_arg1)) := (W2_of_ne m ρ c main_v1 (by decide)).trans (W1_src m ρ c)
theorem W2_dst (c : Dev nD) : W2 m ρ c (Proc.devRef .tc main_v3) = Cert.ReferenceIdeal.Read.val_main_v3 (F := F) (m ((c : Thread nD τ).loc main_arg1)) := (W2_of_ne m ρ c main_v3 (by decide)).trans (W1_dst m ρ c)
theorem W2_coef (c : Dev nD) : W2 m ρ c (Proc.devRef .tc main_v28) = Cert.ReferenceIdeal.Read.val_main_v34 (F := F) (m ((c : Thread nD τ).loc main_arg1)) := (W2_of_ne m ρ c main_v28 (by decide)).trans (W1_coef m ρ c)
theorem W2_arg3 (c : Dev nD) : W2 m ρ c (Proc.devRef .tc main_arg3) = m ((c : Thread nD τ).loc main_arg3) := (W2_of_ne m ρ c main_arg3 (by decide)).trans (W1_arg3 m ρ c)
theorem W3_dinv2 (c : Dev nD) : W3 m ρ c (Proc.devRef .tc main_v12) = Cert.ReferenceIdeal.Read.val_main_v41 (F := F) (m ((c : Thread nD τ).loc main_arg1)) := ((show StableHlo.after hostOps1 (W2 m ρ c) (Proc.devRef .tc main_v12) = W2 m ρ c (Proc.devRef .tc main_v12) by host_keeps hostOps1).trans (W2_of_ne m ρ c main_v12 (by decide))).trans (W1_dinv2 m ρ c)
theorem W3_h (c : Dev nD) : W3 m ρ c (Proc.devRef .tc main_v29) = W2 m ρ c (Proc.devRef .tc main_v29) := (show StableHlo.after hostOps1 (W2 m ρ c) (Proc.devRef .tc main_v29) = W2 m ρ c (Proc.devRef .tc main_v29) by host_keeps hostOps1)
theorem W4_arg4 (c : Dev nD) : W4 m ρ c (Proc.devRef .tc main_arg4) = m ((c : Thread nD τ).loc main_arg4) := ((W4_of_ne m ρ c main_arg4 (by decide)).trans ((show StableHlo.after hostOps1 (W2 m ρ c) (Proc.devRef .tc main_arg4) = W2 m ρ c (Proc.devRef .tc main_arg4) by host_keeps hostOps1).trans (W2_of_ne m ρ c main_arg4 (by decide)))).trans (W1_arg4 m ρ c)
theorem W5_src (c : Dev nD) : W5 m ρ c (Proc.devRef .tc main_v1) = Cert.ReferenceIdeal.Read.val_main_v1 (F := F) (m ((c : Thread nD τ).loc main_arg1)) := ((W5_of_ne m ρ c main_v1 (by decide)).trans ((W4_of_ne m ρ c main_v1 (by decide)).trans ((show StableHlo.after hostOps1 (W2 m ρ c) (Proc.devRef .tc main_v1) = W2 m ρ c (Proc.devRef .tc main_v1) by host_keeps hostOps1).trans (W2_of_ne m ρ c main_v1 (by decide))))).trans (W1_src m ρ c)
theorem W5_dst (c : Dev nD) : W5 m ρ c (Proc.devRef .tc main_v3) = Cert.ReferenceIdeal.Read.val_main_v3 (F := F) (m ((c : Thread nD τ).loc main_arg1)) := ((W5_of_ne m ρ c main_v3 (by decide)).trans ((W4_of_ne m ρ c main_v3 (by decide)).trans ((show StableHlo.after hostOps1 (W2 m ρ c) (Proc.devRef .tc main_v3) = W2 m ρ c (Proc.devRef .tc main_v3) by host_keeps hostOps1).trans (W2_of_ne m ρ c main_v3 (by decide))))).trans (W1_dst m ρ c)
theorem W5_coef (c : Dev nD) : W5 m ρ c (Proc.devRef .tc main_v28) = Cert.ReferenceIdeal.Read.val_main_v34 (F := F) (m ((c : Thread nD τ).loc main_arg1)) := ((W5_of_ne m ρ c main_v28 (by decide)).trans ((W4_of_ne m ρ c main_v28 (by decide)).trans ((show StableHlo.after hostOps1 (W2 m ρ c) (Proc.devRef .tc main_v28) = W2 m ρ c (Proc.devRef .tc main_v28) by host_keeps hostOps1).trans (W2_of_ne m ρ c main_v28 (by decide))))).trans (W1_coef m ρ c)
theorem W5_arg5 (c : Dev nD) : W5 m ρ c (Proc.devRef .tc main_arg5) = m ((c : Thread nD τ).loc main_arg5) := ((W5_of_ne m ρ c main_arg5 (by decide)).trans ((W4_of_ne m ρ c main_arg5 (by decide)).trans ((show StableHlo.after hostOps1 (W2 m ρ c) (Proc.devRef .tc main_arg5) = W2 m ρ c (Proc.devRef .tc main_arg5) by host_keeps hostOps1).trans (W2_of_ne m ρ c main_arg5 (by decide))))).trans (W1_arg5 m ρ c)
theorem W6_dinv2 (c : Dev nD) : W6 m ρ c (Proc.devRef .tc main_v12) = Cert.ReferenceIdeal.Read.val_main_v41 (F := F) (m ((c : Thread nD τ).loc main_arg1)) :=
  ((show StableHlo.after hostOps3 (W5 m ρ c) (Proc.devRef .tc main_v12) = W5 m ρ c (Proc.devRef .tc main_v12) by host_keeps hostOps3).trans ((W5_of_ne m ρ c main_v12 (by decide)).trans ((W4_arr m ρ c 2).trans (((dat1 (V3 m ρ) c).arrAt_in 2 rfl _).trans (A_eq1 (V3 m ρ) c 2))))).trans (W3_dinv2 m ρ c)
theorem W6_h (c : Dev nD) : W6 m ρ c (Proc.devRef .tc main_v44) = W5 m ρ c (Proc.devRef .tc main_v44) := (show StableHlo.after hostOps3 (W5 m ρ c) (Proc.devRef .tc main_v44) = W5 m ρ c (Proc.devRef .tc main_v44) by host_keeps hostOps3)

/-! ## The two aggregations and the two bias rows -/

/-- The second stretch aggregates the first region's product over the edges. -/
theorem W3_agg (c : Dev nD) : W3 m ρ c (Proc.devRef .tc main_v41) = Cert.ReferenceIdeal.Layers.aggOf (W2 m ρ c (Proc.devRef .tc main_v29)) (m ((c : Thread nD τ).loc main_arg1)) := by
  show StableHlo.after hostOps1 (W2 m ρ c) (Proc.devRef .tc main_v41) = _
  after_results_simp
  rw [W2_src, W2_dst, W2_coef]
  rfl

/-- The first layer's bias as a one-row array. -/
theorem W3_bias (c : Dev nD) : W3 m ρ c (Proc.devRef .tc main_v42) = shapeCast S1x128 (m ((c : Thread nD τ).loc main_arg3)) shapeCasts_S128_S1x128 := by
  show StableHlo.after hostOps1 (W2 m ρ c) (Proc.devRef .tc main_v42) = _
  after_results_simp
  rw [W2_arg3]
  rfl

/-- The last stretch aggregates the third region's product over the edges. -/
theorem W6_agg (c : Dev nD) : W6 m ρ c (Proc.devRef .tc main_v56) = Cert.ReferenceIdeal.Layers.aggOf (W5 m ρ c (Proc.devRef .tc main_v44)) (m ((c : Thread nD τ).loc main_arg1)) := by
  show StableHlo.after hostOps3 (W5 m ρ c) (Proc.devRef .tc main_v56) = _
  after_results_simp
  rw [W5_src, W5_dst, W5_coef]
  rfl

/-- The second layer's bias as a one-row array. -/
theorem W6_bias (c : Dev nD) : W6 m ρ c (Proc.devRef .tc main_v57) = shapeCast S1x128 (m ((c : Thread nD τ).loc main_arg5)) shapeCasts_S128_S1x128 := by
  show StableHlo.after hostOps3 (W5 m ρ c) (Proc.devRef .tc main_v57) = _
  after_results_simp
  rw [W5_arg5]
  rfl

/-! ## Each region's output array is what its pipeline's write-backs fold to -/

theorem W2_out (c : Dev nD) : W2 m ρ c (Proc.devRef .tc main_v29) = (dat0 (V1 m ρ) c).arrAt 2 cfg0.N := W2_arr m ρ c 2
theorem W4_out (c : Dev nD) : W4 m ρ c (Proc.devRef .tc main_v43) = (dat1 (V3 m ρ) c).arrAt 4 cfg1.N := W4_arr m ρ c 4
theorem W5_out (c : Dev nD) : W5 m ρ c (Proc.devRef .tc main_v44) = (dat2 (V4 m ρ) c).arrAt 2 cfg2.N := W5_arr m ρ c 2
theorem W7_out (c : Dev nD) : W7 m ρ c (Proc.devRef .tc main_v58) = (dat3 (V6 m ρ) c).arrAt 4 cfg3.N := W7_arr m ρ c 4

end Cert.KernelIdeal.Hand

end
-- ==== Proof.RegionValue.lean ====
/- What each of the four pipelined regions leaves in its result array, read at an index, as a function of
   the buffer contents the region is entered with. Regions 0 and 2 multiply a [100000,128] array by a
   [128,128] weight, 5000 rows to a grid point; regions 1 and 3 add to an aggregate the features scaled row
   by row and a bias row (region 1 then takes the maximum with zero). Per region: the body's arithmetic at
   an entry of a block, each input block as a part of its array, the block a point writes back as a block
   of one whole-array function, and the cover of the array by the twenty row blocks. -/
import proofs.«120353_j4509715661437_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Idealize.ShloMosaic.ValueIdx (ix2)

/-- The zero offset of a whole-block access, as a constant function. -/
theorem hz : (![0, 0] : Fin 2 → Nat) = fun _ => 0 := funext fun a => by fin_cases a <;> rfl

/-! ## The matmul body at an index -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] block times a [128,128] block into a zero accumulator: entry (r, q) is the
    sum over k of left (r, k) times right (k, q). -/
theorem matmul_block_apply (x0 : FVec Ideal S5000x128 .bf16) (x1 : FVec Ideal S128x128 .bf16) (r : Fin 5000) (q : Fin 128) :
    matmul dot_S5000x128_S128x128_S5000x128_1_0_0_1_n_n none x0 x1 (constant (F := Ideal) S5000x128 .f32 0x00000000#32) (ix2 r q)
      = ∑ k : Fin 128, x0 (ix2 r k) * x1 (ix2 k q) := by
  show FloatOps.matmul dot_S5000x128_S128x128_S5000x128_1_0_0_1_n_n none x0 x1 (constant (F := Ideal) S5000x128 .f32 0x00000000#32) (ix2 r q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- Region 0's body: the conversions are the identity on extended reals. -/
theorem k0_pay1_apply (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  exact matmul_block_apply _ _ r q

/-- Region 2's body: the same after a shape cast to the same shape. -/
theorem k2_pay1_apply (x0 : Vec Ideal S5000x128 .f32) (x1 : Vec Ideal S128x128 .f32) (r : Fin 5000) (q : Fin 128) :
    k2_pay1 (F := Ideal) x0 x1 (ix2 r q) = ∑ k : Fin 128, x0 (ix2 r k) * x1 (ix2 k q) := by
  unfold k2_pay1
  rw [shapeCast_self]
  exact matmul_block_apply _ _ r q

/-! ## Region 0: from blocks to the array -/

section Regions
variable (V : (c : Dev nD) → (b : Ref sig .tc) → Buf (Elt Ideal) ((c : Thread nD τ).loc b))

/-- The product of a [100000,128] array and a [128,128] weight, entry by entry. -/
def rowsTimes (A : S100000x128.Idx → EReal) (W : S128x128.Idx → EReal) : S100000x128.Idx → EReal :=
  fun i => ∑ k : Fin 128, A (ix2 (i 0 : Fin 100000) k) * W (ix2 k (i 1 : Fin 128))

/-- Region 0's index maps over the grid: the row windows sit at row block `t`, the weight is one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t … 5000 t + 4999` of its array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c (Pipeline.arrRef spec0 0) : S100000x128.Idx → EReal) k := by
  obtain ⟨e0, e1, -⟩ := index0 t
  unfold iblk0
  rw [View.read_apply]
  refine congrArg (V c (Pipeline.arrRef spec0 0)) (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's block at every point is the whole weight. -/
theorem iblk0_1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c (Pipeline.arrRef spec0 1) : S128x128.Idx → EReal) k := by
  obtain ⟨-, -, e0, e1, -⟩ := index0 t
  unfold iblk0
  rw [View.read_apply]
  refine congrArg (V c (Pipeline.arrRef spec0 1)) (funext fun a => Fin.ext ?_)
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-- What point `t` writes back is block `t` of the product of the two arrays as the region finds them. -/
theorem flushed0_eq (c : Dev nD) (t : Fin cfg0.N) :
    (dat0 V c).flushed 2 t = ((cfg0.win 2).blk t).view.read (Elt Ideal)
      (rowsTimes (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := index0 t
  funext j
  show k0_pay1 (iblk0 V c 0 t) (iblk0 V c 1 t) j = rowsTimes _ _ (((cfg0.win 2).blk t).view.emb j)
  refine (congrArg (k0_pay1 (iblk0 V c 0 t) (iblk0 V c 1 t)) (ValueIdx.eq_ix2 j)).trans ?_
  refine (k0_pay1_apply (iblk0 V c 0 t) (iblk0 V c 1 t) (j 0) (j 1)).trans ?_
  unfold rowsTimes
  refine Finset.sum_congr rfl fun k _ => ?_
  have h0 := iblk0_0_apply V c t (ix2 (j 0) k) (ix2 ((((cfg0.win 2).blk t).view.emb j) 0 : Fin 100000) k)
    (by show win0_2.index t 0 * 5000 + 1 * (j 0).val = 5000 * t.val + (j 0).val; rw [e4]; omega) rfl
  have h1 := iblk0_1_apply V c t (ix2 k (j 1)) (ix2 k ((((cfg0.win 2).blk t).view.emb j) 1 : Fin 128))
    (rfl) (by show win0_2.index t 1 * 128 + 1 * (j 1).val = (j 1).val; rw [e5]; omega)
  rw [h0, h1]

end Regions

section Regions
variable (V : (c : Dev nD) → (b : Ref sig .tc) → Buf (Elt Ideal) ((c : Thread nD τ).loc b))

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `r` of the array lies in the block of point `r / 5000`, and every point writes its block back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  refine ⟨⟨(i 0).val / 5000, ht⟩, flush0_2 _, ?_⟩
  obtain ⟨-, -, -, -, e4, e5⟩ := index0 ⟨(i 0).val / 5000, ht⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After region 0 its result array is the product of its two arrays as the region finds them. -/
theorem final0 (c : Dev nD) :
    (dat0 V c).arrAt 2 cfg0.N = rowsTimes (V c (Pipeline.arrRef spec0 0)) (V c (Pipeline.arrRef spec0 1)) :=
  (dat0 V c).arrAt_eq_of_cover 2 _ (fun t _ => flushed0_eq V c t) cover0

/-- Region 0's result at an index. -/
theorem region0_apply (c : Dev nD) (p : Fin 100000) (q : Fin 128) :
    @Eq EReal ((dat0 V c).arrAt 2 cfg0.N (ix2 p q))
      (∑ k : Fin 128, @HMul.hMul EReal EReal EReal instHMul
        (V c (Pipeline.arrRef spec0 0) (ix2 p k)) (V c (Pipeline.arrRef spec0 1) (ix2 k q))) := by
  rw [final0]; rfl

end Regions

/-! ## The epilogue bodies at an index -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Region 3's body at entry (r, q): the aggregate plus the row-scaled features plus the bias. -/
theorem k3_pay1_apply (x0 x1 : Vec Ideal S5000x128 .f32) (x2 : Vec Ideal S5000x1 .f32) (x3 : Vec Ideal S1x128 .f32)
    (r : Fin 5000) (q : Fin 128) :
    k3_pay1 (F := Ideal) x0 x1 x2 x3 (ix2 r q)
      = FloatOps.addf (FloatOps.addf (x0 (ix2 r q)) (FloatOps.mulf (x1 (ix2 r q)) (x2 (ix2 r (0 : Fin 1))))) (x3 (ix2 (0 : Fin 1) q)) := by
  unfold k3_pay1
  simp only [shapeCast_self]
  show FloatOps.addf (F := Ideal) (φ := .f32) (FloatOps.addf (F := Ideal) (φ := .f32) (x0 (ix2 r q)) (FloatOps.mulf (F := Ideal) (φ := .f32) (x1 (ix2 r q))
      (broadcastTo S5000x128 x2 broadcasts_S5000x1_S5000x128 (ix2 r q))))
      (broadcastTo S5000x128 x3 broadcasts_S1x128_S5000x128 (ix2 r q)) = _
  rw [broadcastTo_a1_ab_apply x2 broadcasts_S5000x1_S5000x128 r q,
    ValueIdx.broadcastTo_1b_ab_apply x3 broadcasts_S1x128_S5000x128 r q]

/-- Region 1's body at entry (r, q): the same, then the maximum with zero. -/
theorem k1_pay1_apply (x0 x1 : Vec Ideal S5000x128 .f32) (x2 : Vec Ideal S5000x1 .f32) (x3 : Vec Ideal S1x128 .f32)
    (r : Fin 5000) (q : Fin 128) :
    k1_pay1 (F := Ideal) x0 x1 x2 x3 (ix2 r q)
      = FloatOps.maximumf (FloatOps.addf (FloatOps.addf (x0 (ix2 r q)) (FloatOps.mulf (x1 (ix2 r q)) (x2 (ix2 r (0 : Fin 1))))) (x3 (ix2 (0 : Fin 1) q)))
          (FloatOps.ofBits .f32 0x00000000#32) := by
  unfold k1_pay1
  simp only [shapeCast_self]
  show FloatOps.maximumf (F := Ideal) (φ := .f32) (FloatOps.addf (F := Ideal) (φ := .f32) (FloatOps.addf (F := Ideal) (φ := .f32) (x0 (ix2 r q)) (FloatOps.mulf (F := Ideal) (φ := .f32) (x1 (ix2 r q))
      (broadcastTo S5000x128 x2 broadcasts_S5000x1_S5000x128 (ix2 r q))))
      (broadcastTo S5000x128 x3 broadcasts_S1x128_S5000x128 (ix2 r q))) (FloatOps.ofBits .f32 0x00000000#32) = _
  rw [broadcastTo_a1_ab_apply x2 broadcasts_S5000x1_S5000x128 r q,
    ValueIdx.broadcastTo_1b_ab_apply x3 broadcasts_S1x128_S5000x128 r q]

/-! ## Region 3: from blocks to the array -/

section Regions
variable (V : (c : Dev nD) → (b : Ref sig .tc) → Buf (Elt Ideal) ((c : Thread nD τ).loc b))

/-- Region 3 over whole arrays: aggregate plus features scaled row by row plus the bias row. -/
def layerOf (A H : S100000x128.Idx → EReal) (D : S100000x1.Idx → EReal) (B : S1x128.Idx → EReal) : S100000x128.Idx → EReal :=
  fun i => FloatOps.addf (F := Ideal) (φ := .f32) (FloatOps.addf (F := Ideal) (φ := .f32) (A i) (FloatOps.mulf (F := Ideal) (φ := .f32) (H i) (D (ix2 (i 0 : Fin 100000) (0 : Fin 1))))) (B (ix2 (0 : Fin 1) (i 1 : Fin 128)))

/-- Region 3's index maps over the grid: the row windows sit at row block `t`, the bias row is one block. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t` is rows `5000 t … 5000 t + 4999` of its array. -/
theorem iblk3_0_apply (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c (Pipeline.arrRef spec3 0) : S100000x128.Idx → EReal) k := by
  obtain ⟨e0, e1, -⟩ := index3 t
  unfold iblk3
  rw [View.read_apply]
  refine congrArg (V c (Pipeline.arrRef spec3 0)) (funext fun a => Fin.ext ?_)
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The features' block at point `t` is the same rows of their array. -/
theorem iblk3_1_apply (c : Dev nD) (t : Fin cfg3.N) (x : S5000x128.Idx) (k : S100000x128.Idx)
    (hk0 : (k 0).val = 5000 * t.val + (x 0).val) (hk1 : (k 1).val = (x 1).val) :
    (iblk3 V c 1 t : Vec Ideal S5000x128 .f32) x = (V c (Pipeline.arrRef spec3 1) : S100000x128.Idx → EReal) k := by
  obtain ⟨-, -, e0, e1, -⟩ := index3 t
  unfold iblk3
  rw [View.read_apply]
  refine congrArg (V c (Pipeline.arrRef spec3 1)) (funext fun a => Fin.ext ?_)
  match a with
  | ⟨0, _⟩ => show win3_1.index t 0 * 5000 + 1 * (x 0).val = (k 0).val; rw [e0, hk0]; omega
  | ⟨1, _⟩ => show win3_1.index t 1 * 128 + 1 * (x 1).val = (k 1).val; rw [e1, hk1]; omega

/-- The row scales' block at point `t` is the same rows of the [100000,1] column. -/
theorem iblk3_2_apply (c : Dev nD) (t : Fin cfg3.N) (x : S5000x1.Idx) (k : S100000x1.Idx)
    (hk0 : (k 0).val = 5000 * t.val + (x 0).val) (hk1 : (k 1).val = (x 1).val) :
    (iblk3 V c 2 t : Vec Ideal S5000x1 .f32) x = (V c (Pipeline.arrRef spec3 2) : S100000x1.Idx → EReal) k := by
  obtain ⟨-, -, -, -, e0, e1, -⟩ := index3 t
  unfold iblk3
  rw [View.read_apply]
  refine congrArg (V c (Pipeline.arrRef spec3 2)) (funext fun a => Fin.ext ?_)
  match a with
  | ⟨0, _⟩ => show win3_2.index t 0 * 5000 + 1 * (x 0).val = (k 0).val; rw [e0, hk0]; omega
  | ⟨1, _⟩ => show win3_2.index t 1 * 1 + 1 * (x 1).val = (k 1).val; rw [e1, hk1]; omega

/-- The bias row's block at every point is the whole row. -/
theorem iblk3_3_apply (c : Dev nD) (t : Fin cfg3.N) (x : S1x128.Idx) (k : S1x128.Idx)
    (hk0 : (k 0).val = (x 0).val) (hk1 : (k 1).val = (x 1).val) :
    (iblk3 V c 3 t : Vec Ideal S1x128 .f32) x = (V c (Pipeline.arrRef spec3 3) : S1x128.Idx → EReal) k := by
  obtain ⟨-, -, -, -, -, -, e0, e1, -⟩ := index3 t
  unfold iblk3
  rw [View.read_apply]
  refine congrArg (V c (Pipeline.arrRef spec3 3)) (funext fun a => Fin.ext ?_)
  match a with
  | ⟨0, _⟩ => show win3_3.index t 0 * 1 + 1 * (x 0).val = (k 0).val; rw [e0, hk0]; omega
  | ⟨1, _⟩ => show win3_3.index t 1 * 128 + 1 * (x 1).val = (k 1).val; rw [e1, hk1]; omega

/-- What point `t` writes back is block `t` of that function of the four arrays as the region finds them. -/
theorem flushed3_eq (c : Dev nD) (t : Fin cfg3.N) :
    (dat3 V c).flushed 4 t = ((cfg3.win 4).blk t).view.read (Elt Ideal)
      (layerOf (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := index3 t
  funext j
  show k3_pay1 (iblk3 V c 0 t) (iblk3 V c 1 t) (iblk3 V c 2 t) (iblk3 V c 3 t) j = layerOf _ _ _ _ (((cfg3.win 4).blk t).view.emb j)
  refine (congrArg (k3_pay1 (iblk3 V c 0 t) (iblk3 V c 1 t) (iblk3 V c 2 t) (iblk3 V c 3 t)) (ValueIdx.eq_ix2 j)).trans ?_
  refine (k3_pay1_apply (iblk3 V c 0 t) (iblk3 V c 1 t) (iblk3 V c 2 t) (iblk3 V c 3 t) (j 0) (j 1)).trans ?_
  unfold layerOf
  have r0 : ((((cfg3.win 4).blk t).view.emb j) 0).val = 5000 * t.val + (j 0).val := by
    show win3_4.index t 0 * 5000 + 1 * (j 0).val = 5000 * t.val + (j 0).val; rw [e8]; omega
  have r1 : ((((cfg3.win 4).blk t).view.emb j) 1).val = (j 1).val := by
    show win3_4.index t 1 * 128 + 1 * (j 1).val = (j 1).val; rw [e9]; omega
  have h0 := iblk3_0_apply V c t (ix2 (j 0) (j 1)) (((cfg3.win 4).blk t).view.emb j) r0 r1
  have h1 := iblk3_1_apply V c t (ix2 (j 0) (j 1)) (((cfg3.win 4).blk t).view.emb j) r0 r1
  have h2 := iblk3_2_apply V c t (ix2 (j 0) (0 : Fin 1)) (ix2 ((((cfg3.win 4).blk t).view.emb j) 0 : Fin 100000) (0 : Fin 1)) r0 rfl
  have h3 := iblk3_3_apply V c t (ix2 (0 : Fin 1) (j 1)) (ix2 (0 : Fin 1) ((((cfg3.win 4).blk t).view.emb j) 1 : Fin 128)) rfl r1
  rw [h0, h1, h2, h3]

/-- An index of the array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v58).slice (win3_4.rect t)).set ↔ _
  rw [View.set_slice_whole, Rect.mem_set_unit]
  exact Iff.rfl

/-- Row `r` of the array lies in the block of point `r / 5000`, and every point writes its block back. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; rw [hN]; omega
  refine ⟨⟨(i 0).val / 5000, ht⟩, flush3_4 _, ?_⟩
  obtain ⟨-, -, -, -, -, -, -, -, e8, e9⟩ := index3 ⟨(i 0).val / 5000, ht⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e9]; omega

/-- After region 3 its result array is that function of its four arrays as the region finds them. -/
theorem final3 (c : Dev nD) :
    (dat3 V c).arrAt 4 cfg3.N = layerOf (V c (Pipeline.arrRef spec3 0)) (V c (Pipeline.arrRef spec3 1)) (V c (Pipeline.arrRef spec3 2)) (V c (Pipeline.arrRef spec3 3)) :=
  (dat3 V c).arrAt_eq_of_cover 4 _ (fun t _ => flushed3_eq V c t) cover3

/-- Region 3's result at an index. -/
theorem region3_apply (c : Dev nD) (p : Fin 100000) (q : Fin 128) :
    @Eq EReal ((dat3 V c).arrAt 4 cfg3.N (ix2 p q))
      (FloatOps.addf (F := Ideal) (φ := .f32) (FloatOps.addf (F := Ideal) (φ := .f32) (V c (Pipeline.arrRef spec3 0) (ix2 p q)) (FloatOps.mulf (F := Ideal) (φ := .f32) (V c (Pipeline.arrRef spec3 1) (ix2 p q)) (V c (Pipeline.arrRef spec3 2) (ix2 p (0 : Fin 1))))) (V c (Pipeline.arrRef spec3 3) (ix2 (0 : Fin 1) q))) := by
  rw [final3]; rfl

end Regions

/-! ## Region 1: from blocks to the array -/

section Regions
variable (V : (c : Dev nD) → (b : Ref sig .tc) → Buf (Elt Ideal) ((c : Thread nD τ).loc b))

/-- Region 1 over whole arrays: aggregate plus features scaled row by row plus the bias row, then the maximum with zero. -/
def layerReluOf (A H : S100000x128.Idx → EReal) (D : S100000x1.Idx → EReal) (B : S1x128.Idx → EReal) : S100000x128.Idx → EReal :=
  fun i => FloatOps.maximumf (F := Ideal) (φ := .f32) (layerOf A H D B i) (FloatOps.ofBits (F := Ideal) .f32 0x00000000#32)

/-- Region 1's index maps over the grid: the row windows sit at row block `t`, the bias row is one block. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` is rows `5000 t … 5000 t + 4999` of its array. -/
theorem iblk1_0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c (Pipeline.arrRef spec1 0) : S100000x128.Idx → EReal) k := by
  obtain ⟨e0, e1, -⟩ := index1 t
  unfold iblk1
  rw [View.read_apply]
  refine congrArg (V c (Pipeline.arrRef spec1 0)) (funext fun a => Fin.ext ?_)
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The features' block at point `t` is the same rows of their array. -/
theorem iblk1_1_apply (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .f32) x = (V c (Pipeline.arrRef spec1 1) : S100000x128.Idx → EReal) k := by
  obtain ⟨-, -, e0, e1, -⟩ := index1 t
  unfold iblk1
  rw [View.read_apply]
  refine congrArg (V c (Pipeline.arrRef spec1 1)) (funext fun a => Fin.ext ?_)
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The row scales' block at point `t` is the same rows of the [100000,1] column. -/
theorem iblk1_2_apply (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c (Pipeline.arrRef spec1 2) : S100000x1.Idx → EReal) k := by
  obtain ⟨-, -, -, -, e0, e1, -⟩ := index1 t
  unfold iblk1
  rw [View.read_apply]
  refine congrArg (V c (Pipeline.arrRef spec1 2)) (funext fun a => Fin.ext ?_)
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- The bias row's block at every point is the whole row. -/
theorem iblk1_3_apply (c : Dev nD) (t : Fin cfg1.N) (x : S1x128.Idx) (k : S1x128.Idx)
    (hk0 : (k 0).val = (x 0).val) (hk1 : (k 1).val = (x 1).val) :
    (iblk1 V c 3 t : Vec Ideal S1x128 .f32) x = (V c (Pipeline.arrRef spec1 3) : S1x128.Idx → EReal) k := by
  obtain ⟨-, -, -, -, -, -, e0, e1, -⟩ := index1 t
  unfold iblk1
  rw [View.read_apply]
  refine congrArg (V c (Pipeline.arrRef spec1 3)) (funext fun a => Fin.ext ?_)
  match a with
  | ⟨0, _⟩ => show win1_3.index t 0 * 1 + 1 * (x 0).val = (k 0).val; rw [e0, hk0]; omega
  | ⟨1, _⟩ => show win1_3.index t 1 * 128 + 1 * (x 1).val = (k 1).val; rw [e1, hk1]; omega

/-- What point `t` writes back is block `t` of that function of the four arrays as the region finds them. -/
theorem flushed1_eq (c : Dev nD) (t : Fin cfg1.N) :
    (dat1 V c).flushed 4 t = ((cfg1.win 4).blk t).view.read (Elt Ideal)
      (layerReluOf (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := index1 t
  funext j
  show k1_pay1 (iblk1 V c 0 t) (iblk1 V c 1 t) (iblk1 V c 2 t) (iblk1 V c 3 t) j = layerReluOf _ _ _ _ (((cfg1.win 4).blk t).view.emb j)
  refine (congrArg (k1_pay1 (iblk1 V c 0 t) (iblk1 V c 1 t) (iblk1 V c 2 t) (iblk1 V c 3 t)) (ValueIdx.eq_ix2 j)).trans ?_
  refine (k1_pay1_apply (iblk1 V c 0 t) (iblk1 V c 1 t) (iblk1 V c 2 t) (iblk1 V c 3 t) (j 0) (j 1)).trans ?_
  unfold layerReluOf layerOf
  have r0 : ((((cfg1.win 4).blk t).view.emb j) 0).val = 5000 * t.val + (j 0).val := by
    show win1_4.index t 0 * 5000 + 1 * (j 0).val = 5000 * t.val + (j 0).val; rw [e8]; omega
  have r1 : ((((cfg1.win 4).blk t).view.emb j) 1).val = (j 1).val := by
    show win1_4.index t 1 * 128 + 1 * (j 1).val = (j 1).val; rw [e9]; omega
  have h0 := iblk1_0_apply V c t (ix2 (j 0) (j 1)) (((cfg1.win 4).blk t).view.emb j) r0 r1
  have h1 := iblk1_1_apply V c t (ix2 (j 0) (j 1)) (((cfg1.win 4).blk t).view.emb j) r0 r1
  have h2 := iblk1_2_apply V c t (ix2 (j 0) (0 : Fin 1)) (ix2 ((((cfg1.win 4).blk t).view.emb j) 0 : Fin 100000) (0 : Fin 1)) r0 rfl
  have h3 := iblk1_3_apply V c t (ix2 (0 : Fin 1) (j 1)) (ix2 (0 : Fin 1) ((((cfg1.win 4).blk t).view.emb j) 1 : Fin 128)) rfl r1
  rw [h0, h1, h2, h3]

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row `r` of the array lies in the block of point `r / 5000`, and every point writes its block back. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  refine ⟨⟨(i 0).val / 5000, ht⟩, flush1_4 _, ?_⟩
  obtain ⟨-, -, -, -, -, -, -, -, e8, e9⟩ := index1 ⟨(i 0).val / 5000, ht⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e9]; omega

/-- After region 1 its result array is that function of its four arrays as the region finds them. -/
theorem final1 (c : Dev nD) :
    (dat1 V c).arrAt 4 cfg1.N = layerReluOf (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) cover1

/-- Region 1's result at an index. -/
theorem region1_apply (c : Dev nD) (p : Fin 100000) (q : Fin 128) :
    @Eq EReal ((dat1 V c).arrAt 4 cfg1.N (ix2 p q))
      (FloatOps.maximumf (F := Ideal) (φ := .f32) (FloatOps.addf (F := Ideal) (φ := .f32) (FloatOps.addf (F := Ideal) (φ := .f32) (V c (Pipeline.arrRef spec1 0) (ix2 p q)) (FloatOps.mulf (F := Ideal) (φ := .f32) (V c (Pipeline.arrRef spec1 1) (ix2 p q)) (V c (Pipeline.arrRef spec1 2) (ix2 p (0 : Fin 1))))) (V c (Pipeline.arrRef spec1 3) (ix2 (0 : Fin 1) q))) (FloatOps.ofBits .f32 0x00000000#32)) := by
  rw [final1]; rfl

end Regions

/-! ## Region 2: from blocks to the array -/

section Regions
variable (V : (c : Dev nD) → (b : Ref sig .tc) → Buf (Elt Ideal) ((c : Thread nD τ).loc b))

/-- Region 2's index maps over the grid: the row windows sit at row block `t`, the weight is one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `5000 t … 5000 t + 4999` of its array. -/
theorem iblk2_0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c (Pipeline.arrRef spec2 0) : S100000x128.Idx → EReal) k := by
  obtain ⟨e0, e1, -⟩ := index2 t
  unfold iblk2
  rw [View.read_apply]
  refine congrArg (V c (Pipeline.arrRef spec2 0)) (funext fun a => Fin.ext ?_)
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The weight's block at every point is the whole weight. -/
theorem iblk2_1_apply (c : Dev nD) (t : Fin cfg2.N) (x : S128x128.Idx) (k : S128x128.Idx)
    (hk0 : (k 0).val = (x 0).val) (hk1 : (k 1).val = (x 1).val) :
    (iblk2 V c 1 t : Vec Ideal S128x128 .f32) x = (V c (Pipeline.arrRef spec2 1) : S128x128.Idx → EReal) k := by
  obtain ⟨-, -, e0, e1, -⟩ := index2 t
  unfold iblk2
  rw [View.read_apply]
  refine congrArg (V c (Pipeline.arrRef spec2 1)) (funext fun a => Fin.ext ?_)
  match a with
  | ⟨0, _⟩ => show win2_1.index t 0 * 128 + 1 * (x 0).val = (k 0).val; rw [e0, hk0]; omega
  | ⟨1, _⟩ => show win2_1.index t 1 * 128 + 1 * (x 1).val = (k 1).val; rw [e1, hk1]; omega

/-- What point `t` writes back is block `t` of the product of the two arrays as the region finds them. -/
theorem flushed2_eq (c : Dev nD) (t : Fin cfg2.N) :
    (dat2 V c).flushed 2 t = ((cfg2.win 2).blk t).view.read (Elt Ideal)
      (rowsTimes (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := index2 t
  funext j
  show k2_pay1 (iblk2 V c 0 t) (iblk2 V c 1 t) j = rowsTimes _ _ (((cfg2.win 2).blk t).view.emb j)
  refine (congrArg (k2_pay1 (iblk2 V c 0 t) (iblk2 V c 1 t)) (ValueIdx.eq_ix2 j)).trans ?_
  refine (k2_pay1_apply (iblk2 V c 0 t) (iblk2 V c 1 t) (j 0) (j 1)).trans ?_
  unfold rowsTimes
  refine Finset.sum_congr rfl fun k _ => ?_
  have h0 := iblk2_0_apply V c t (ix2 (j 0) k) (ix2 ((((cfg2.win 2).blk t).view.emb j) 0 : Fin 100000) k)
    (by show win2_2.index t 0 * 5000 + 1 * (j 0).val = 5000 * t.val + (j 0).val; rw [e4]; omega) rfl
  have h1 := iblk2_1_apply V c t (ix2 k (j 1)) (ix2 k ((((cfg2.win 2).blk t).view.emb j) 1 : Fin 128))
    (rfl) (by show win2_2.index t 1 * 128 + 1 * (j 1).val = (j 1).val; rw [e5]; omega)
  rw [h0, h1]

end Regions

section Regions
variable (V : (c : Dev nD) → (b : Ref sig .tc) → Buf (Elt Ideal) ((c : Thread nD τ).loc b))

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row `r` of the array lies in the block of point `r / 5000`, and every point writes its block back. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; rw [hN]; omega
  refine ⟨⟨(i 0).val / 5000, ht⟩, flush2_2 _, ?_⟩
  obtain ⟨-, -, -, -, e4, e5⟩ := index2 ⟨(i 0).val / 5000, ht⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- After region 2 its result array is the product of its two arrays as the region finds them. -/
theorem final2 (c : Dev nD) :
    (dat2 V c).arrAt 2 cfg2.N = rowsTimes (V c (Pipeline.arrRef spec2 0)) (V c (Pipeline.arrRef spec2 1)) :=
  (dat2 V c).arrAt_eq_of_cover 2 _ (fun t _ => flushed2_eq V c t) cover2

/-- Region 2's result at an index. -/
theorem region2_apply (c : Dev nD) (p : Fin 100000) (q : Fin 128) :
    @Eq EReal ((dat2 V c).arrAt 2 cfg2.N (ix2 p q))
      (∑ k : Fin 128, @HMul.hMul EReal EReal EReal instHMul
        (V c (Pipeline.arrRef spec2 0) (ix2 p k)) (V c (Pipeline.arrRef spec2 1) (ix2 k q))) := by
  rw [final2]; rfl

end Regions

end Cert.KernelIdeal.RegionValue

end
-- ==== Proof.KernelValue.lean ====
/-
  What the kernel program computes, as a function of its arguments.

  Region by region, at the ideal values: the first region's output array is the product of the features with the first
  weight matrix (a sum over the contracted axis, block by block the same sum); the second region's is the first layer —
  the aggregation of that product over the edges, plus the product scaled by the squared normalisation, plus the bias,
  cut off below at zero; the third region's is the product of the first layer with the second weight matrix; the last
  region's is the second layer, with no cut-off.  Each is, entry by entry, the corresponding stage of the reference, so
  the program's result array is the reference's result as a function of the six arguments.
-/
import proofs.«120353_j4509715661437_1_alg».proof.Proof.KernelRun
import proofs.«120353_j4509715661437_1_alg».proof.Proof.Boundary
import proofs.«120353_j4509715661437_1_alg».proof.Proof.RegionValue
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.Read Cert.ReferenceIdeal.Layers
open Cert.KernelIdeal.RegionValue (rowsTimes layerOf layerReluOf)

/-! ## The regions' functions are the reference's stages -/

/-- Rows times columns is the reference's first product. -/
theorem rowsTimes_eq_prod1 (x0 : (⟨S100000x128, .f32⟩ : BufTy).Contents (Elt Ideal)) (x2 : (⟨S128x128, .f32⟩ : BufTy).Contents (Elt Ideal)) :
    rowsTimes x0 x2 = val_main_v4 (F := Ideal) x0 x2 := by
  funext i
  obtain ⟨p, q, rfl⟩ : ∃ (p : Fin 100000) (q : Fin 128), i = ix2 p q := ⟨i 0, i 1, eq_ix2 i⟩
  rw [prod1_apply]
  rfl

/-- Rows of the first layer times columns of the second weight matrix is the reference's second product. -/
theorem rowsTimes_eq_prod2 (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    rowsTimes (val_main_v48 (F := Ideal) x0 x1 x2 x3) x4 = val_main_v49 (F := Ideal) x0 x1 x2 x3 x4 := by
  funext i
  obtain ⟨p, q, rfl⟩ : ∃ (p : Fin 100000) (q : Fin 128), i = ix2 p q := ⟨i 0, i 1, eq_ix2 i⟩
  rw [prod2_apply]
  rfl

/-- The first layer, with the bias spelt as a reshaped row. -/
theorem layerRelu_eq (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) :
    layerReluOf (aggOf (val_main_v4 (F := Ideal) x0 x2) x1) (val_main_v4 (F := Ideal) x0 x2) (val_main_v41 (F := Ideal) x1)
        (shapeCast S1x128 x3 shapeCasts_S128_S1x128)
      = val_main_v48 (F := Ideal) x0 x1 x2 x3 := by
  funext i
  obtain ⟨p, q, rfl⟩ : ∃ (p : Fin 100000) (q : Fin 128), i = ix2 p q := ⟨i 0, i 1, eq_ix2 i⟩
  rw [layer1_apply, agg1_eq, ← shapeCast_a_1a_apply x3 shapeCasts_S128_S1x128 (0 : Fin 1) q]
  rfl

/-- The second layer, likewise. -/
theorem layer_eq (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal)) :
    layerOf (aggOf (val_main_v49 (F := Ideal) x0 x1 x2 x3 x4) x1) (val_main_v49 (F := Ideal) x0 x1 x2 x3 x4) (val_main_v41 (F := Ideal) x1)
        (shapeCast S1x128 x5 shapeCasts_S128_S1x128)
      = val_main_v92 (F := Ideal) x0 x1 x2 x3 x4 x5 := by
  funext i
  obtain ⟨p, q, rfl⟩ : ∃ (p : Fin 100000) (q : Fin 128), i = ix2 p q := ⟨i 0, i 1, eq_ix2 i⟩
  rw [layer2_apply, agg2_eq, dinv2_eq, ← shapeCast_a_1a_apply x5 shapeCasts_S128_S1x128 (0 : Fin 1) q]
  rfl

/-! ## The program's arrays, region by region -/

variable (m : (ℓ : Loc nD τ sig) → Buf (Elt Ideal) ℓ) (ρ : Dev nD → PrngReg)

/-- The first region leaves the product of the features with the first weight matrix. -/
theorem prod1 (c : Dev nD) : W2 m ρ c (Proc.devRef .tc main_v29) = val_main_v4 (F := Ideal) (m ((c : Thread nD τ).loc main_arg0)) (m ((c : Thread nD τ).loc main_arg2)) := by
  have e0 : V1 m ρ c (Pipeline.arrRef spec0 0) = (m ((c : Thread nD τ).loc main_arg0)) := W1_arg0 m ρ c
  have e1 : V1 m ρ c (Pipeline.arrRef spec0 1) = (m ((c : Thread nD τ).loc main_arg2)) := W1_arg2 m ρ c
  rw [W2_out, Cert.KernelIdeal.RegionValue.final0, e0, e1]
  exact rowsTimes_eq_prod1 _ _

/-- The second region leaves the first layer. -/
theorem layer1 (c : Dev nD) : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  have e0 : V3 m ρ c (Pipeline.arrRef spec1 0) = aggOf (val_main_v4 (F := Ideal) (m ((c : Thread nD τ).loc main_arg0)) (m ((c : Thread nD τ).loc main_arg2))) (m ((c : Thread nD τ).loc main_arg1)) :=
    (W3_agg m ρ c).trans (by rw [prod1])
  have e1 : V3 m ρ c (Pipeline.arrRef spec1 1) = val_main_v4 (F := Ideal) (m ((c : Thread nD τ).loc main_arg0)) (m ((c : Thread nD τ).loc main_arg2)) := (W3_h m ρ c).trans (prod1 m ρ c)
  have e2 : V3 m ρ c (Pipeline.arrRef spec1 2) = val_main_v41 (F := Ideal) (m ((c : Thread nD τ).loc main_arg1)) := W3_dinv2 m ρ c
  have e3 : V3 m ρ c (Pipeline.arrRef spec1 3) = shapeCast S1x128 (m ((c : Thread nD τ).loc main_arg3)) shapeCasts_S128_S1x128 := W3_bias m ρ c
  rw [W4_out, Cert.KernelIdeal.RegionValue.final1, e0, e1, e2, e3]
  exact layerRelu_eq _ _ _ _

/-- The third region leaves the product of the first layer with the second weight matrix. -/
theorem prod2 (c : Dev nD) : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e0 : V4 m ρ c (Pipeline.arrRef spec2 0) = val_main_v48 (F := Ideal) (m ((c : Thread nD τ).loc main_arg0)) (m ((c : Thread nD τ).loc main_arg1)) (m ((c : Thread nD τ).loc main_arg2)) (m ((c : Thread nD τ).loc main_arg3)) := layer1 m ρ c
  have e1 : V4 m ρ c (Pipeline.arrRef spec2 1) = (m ((c : Thread nD τ).loc main_arg4)) := W4_arg4 m ρ c
  rw [W5_out, Cert.KernelIdeal.RegionValue.final2, e0, e1]
  exact rowsTimes_eq_prod2 _ _ _ _ _

/-- The last region leaves the second layer: the reference's result. -/
theorem layer2 (c : Dev nD) : W7 m ρ c (Proc.devRef .tc main_v58) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e0 : V6 m ρ c (Pipeline.arrRef spec3 0) = aggOf (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
    (W6_agg m ρ c).trans (by rw [prod2])
  have e1 : V6 m ρ c (Pipeline.arrRef spec3 1) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (W6_h m ρ c).trans (prod2 m ρ c)
  have e2 : V6 m ρ c (Pipeline.arrRef spec3 2) = val_main_v41 (F := Ideal) (m ((c : Thread nD τ).loc main_arg1)) := W6_dinv2 m ρ c
  have e3 : V6 m ρ c (Pipeline.arrRef spec3 3) = shapeCast S1x128 (m ((c : Thread nD τ).loc main_arg5)) shapeCasts_S128_S1x128 := W6_bias m ρ c
  rw [W7_out, Cert.KernelIdeal.RegionValue.final3, e0, e1, e2, e3]
  exact layer_eq _ _ _ _ _ _

/-- The program's run, with the result as the reference's function of the arguments. -/
theorem run_value : θ_run defs (onTc (τ := τ) (main (F := Ideal))) ⟨m, fun _ => 0, ρ⟩ (fun r => ∀ c : Dev nD,
      r.2.mem ((c.tc : Thread nD τ).loc main_v58) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (layer2 m ρ c), (h c).2⟩) (run_result m ρ)

end Cert.KernelIdeal.Hand

end
-- ==== Proof.lean ====
/-
  A two-layer graph convolution: the kernel program against its reference, at the ideal values.

  Both programs compute, per layer, `agg + h · dinv² + b` where `h` is the product of the layer's features with its
  weight matrix, `agg` the aggregation of `h` over the edges (gather the source rows, scale by the edge coefficient,
  scatter-add into the destination rows), `dinv` the inverse square root of one plus the in-degree, and `b` the bias;
  the first layer is cut off below at zero.  The kernel program computes `h` and the final sum in pipelined regions,
  block of 5000 rows by block, rounding the product's operands to a shorter format on the way in — the identity at the
  ideal values — and leaves the gather and the scatter-add to the host, where the reference has them too.  Nothing is
  regrouped: the two sides add and multiply the same extended reals in the same order, so no law of arithmetic beyond
  the matrix product being the same sum is used, and the precondition (finite inputs) is never opened.

  The three frames are the generated ones (the reference's is its generated run with the result dropped); the
  idealization rewrote no operation, so there is nothing to preserve; the value claim pairs the kernel's run, its
  result read back region by region to the reference's stages, with the reference's generated run.
-/
import proofs.«120353_j4509715661437_1_alg».proof.Defs
import proofs.«120353_j4509715661437_1_alg».proof.Proof.Gen.Kernel
import proofs.«120353_j4509715661437_1_alg».proof.Proof.Gen.Kernel.Skeleton
import proofs.«120353_j4509715661437_1_alg».proof.Proof.Gen.Kernel.Launch
import proofs.«120353_j4509715661437_1_alg».proof.Proof.Gen.Kernel.Points
import proofs.«120353_j4509715661437_1_alg».proof.Proof.Gen.Kernel.Frame
import proofs.«120353_j4509715661437_1_alg».proof.Proof.Gen.KernelIdeal
import proofs.«120353_j4509715661437_1_alg».proof.Proof.Gen.KernelIdeal.Skeleton
import proofs.«120353_j4509715661437_1_alg».proof.Proof.Gen.KernelIdeal.Launch
import proofs.«120353_j4509715661437_1_alg».proof.Proof.Gen.KernelIdeal.Points
import proofs.«120353_j4509715661437_1_alg».proof.Proof.Gen.KernelIdeal.Frame
import proofs.«120353_j4509715661437_1_alg».proof.Proof.Gen.ReferenceIdeal
import proofs.«120353_j4509715661437_1_alg».proof.Proof.Gen.Pre_finite_inputs
import proofs.«120353_j4509715661437_1_alg».proof.Proof.Gen.ReferenceIdeal.Run
import proofs.«120353_j4509715661437_1_alg».proof.Proof.Gen.ReferenceIdeal.Read
import proofs.«120353_j4509715661437_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's last stage of the six arguments in their result arrays. -/
theorem algebraic : Cert.algebraic_KernelIdeal_ReferenceIdeal := by
  intro m ρ m' ρ' _ hagree
  refine ⟨fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v92_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
